-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x512 : Shape := ⟨2, ![1024, 512]⟩
abbrev S1024 : Shape := ⟨1, ![1024]⟩
abbrev S100000x512 : Shape := ⟨2, ![100000, 512]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel
  bcast_S_S100000x512 : S_.BroadcastsInDim S100000x512 (![] : Fin 0 → Fin S100000x512.rank)
  reducesTo_S100000x512_S_d0_1 : S100000x512.ReducesTo [0, 1] S_

variable [Facts]

def fn {F : FTy → Type} [FloatOps F] (main_arg0 : FVec F S1024x512 .f32) (main_arg1 : IVec S1024 32) (main_arg2 : FVec F S100000x512 .f32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  let main_v4 : FVec F S100000x512 .f32 := Host.absf main_arg2
  let main_cst_0 : FVec F S_ .f32 := constant S_ .f32 0x7F800000#32
  let main_v5 : FVec F S100000x512 .f32 := broadcastInDim S100000x512 ![] bcast_S_S100000x512 main_cst_0
  let main_v6 : IVec S100000x512 1 := cmpf .olt main_v4 main_v5
  let main_c_1 : IVec S_ 1 := constantI S_ 1 1#1
  let main_v7 : IVec S_ 1 := (fun x v => Host.reduce IntOp.andi x v reducesTo_S100000x512_S_d0_1 h_S_) main_v6 main_c_1
  let main_v8 : IVec S_ 1 := andi main_v3 main_v7
  main_v8
-- ==== Kernel.lean ====
abbrev S1024x512 : Shape := ⟨2, ![1024, 512]⟩
abbrev S1024 : Shape := ⟨1, ![1024]⟩
abbrev S100000x512 : Shape := ⟨2, ![100000, 512]⟩
abbrev S1024x1 : Shape := ⟨2, ![1024, 1]⟩
abbrev S1024x100000 : Shape := ⟨2, ![1024, 100000]⟩
abbrev S1024x1024 : Shape := ⟨2, ![1024, 1024]⟩
abbrev S512x1024 : Shape := ⟨2, ![512, 1024]⟩

abbrev nBuf : Space → Nat
  | .hbm => 5
  | .vmem => 6
  | .smem => 0
  | _ => 0

abbrev bufTy : (tb : Table) → Fin (tcTables nBuf tb) → BufTy
  | .hbm, ⟨0, _⟩ => ⟨S1024x512, .f32⟩
  | .hbm, ⟨1, _⟩ => ⟨S1024, .i32⟩
  | .hbm, ⟨2, _⟩ => ⟨S100000x512, .f32⟩
  | .hbm, ⟨3, _⟩ => ⟨S1024x1, .i32⟩
  | .hbm, ⟨4, _⟩ => ⟨S1024x100000, .f32⟩
  | .local _ .vmem, ⟨0, _⟩ => ⟨S1024x512, .f32⟩
  | .local _ .vmem, ⟨1, _⟩ => ⟨S1024x1, .i32⟩
  | .local _ .vmem, ⟨2, _⟩ => ⟨S1024x512, .f32⟩
  | .local _ .vmem, ⟨3, _⟩ => ⟨S1024x512, .f32⟩
  | .local _ .vmem, ⟨4, _⟩ => ⟨S1024x1024, .f32⟩
  | .local _ .vmem, ⟨5, _⟩ => ⟨S1024x1024, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![98], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S1024_S1024x1 : S1024.ShapeCasts S1024x1
  inb_S1024x512_S1024x512_0_0 : ∀ a, (![0, 0] : Fin 2 → Nat) a + S1024x512.size a ≤ S1024x512.size a
  h_S1024x512 : 0 < S1024x512.numel
  reduces_S1024x512_S1024 : S1024x512.Reduces [1] S1024
  broadcasts_S1024x1_S1024x512 : S1024x1.Broadcasts S1024x512
  bitsLt_bf16_f32 : FTy.bits .bf16 < FTy.bits .f32
  transposes_S1024x512_p1_0_S512x1024 : S1024x512.Transposes [1, 0] S512x1024
  iota_S1024x1024_d1_w32 : S1024x1024.Iotas .tc 32 [1]
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x1024 : S1024x1.Broadcasts S1024x1024
  inb_S1024x1024_S1024x1024_0_0 : ∀ a, (![0, 0] : Fin 2 → Nat) a + S1024x1024.size a ≤ S1024x1024.size a
  h_S1024x1024 : 0 < S1024x1024.numel
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S1024x512.size a
  hwx0_0 : ∀ i : grid0.Coords, EltTy.bits .f32 = 32 ∨ (Rect.block (s := S1024x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S1024x1.size a
  hwx0_1 : ∀ i : grid0.Coords, EltTy.bits .i32 = 32 ∨ (Rect.block (s := S1024x1) S1024x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S1024x512.size a < S100000x512.size a
  hwx0_2 : ∀ i : grid0.Coords, EltTy.bits .f32 = 32 ∨ (Rect.unit (s := S100000x512) (fun a => cc0_transform_2 i a * S1024x512.size a) (fun a => (Pipeline.Clip.of (cc0_transform_2 i a) (S1024x512.size a) (S100000x512.size a)).extent (S1024x512.size a)) fun a => Pipeline.Clip.inb (Pipeline.Clip.ok_of (hstart0_2 i a))).WholeWords (EltTy.packing .f32)
  hwxs0_2 : ∀ i : grid0.Coords, EltTy.bits .f32 = 32 ∨ (Rect.unit (s := S1024x512) (fun _ => 0) (fun a => (Pipeline.Clip.of (cc0_transform_2 i a) (S1024x512.size a) (S100000x512.size a)).extent (S1024x512.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S1024x1024.size a < S1024x100000.size a
  hwx0_3 : ∀ i : grid0.Coords, EltTy.bits .f32 = 32 ∨ (Rect.unit (s := S1024x100000) (fun a => cc0_transform_3 i a * S1024x1024.size a) (fun a => (Pipeline.Clip.of (cc0_transform_3 i a) (S1024x1024.size a) (S1024x100000.size a)).extent (S1024x1024.size a)) fun a => Pipeline.Clip.inb (Pipeline.Clip.ok_of (hstart0_3 i a))).WholeWords (EltTy.packing .f32)
  hwxs0_3 : ∀ i : grid0.Coords, EltTy.bits .f32 = 32 ∨ (Rect.unit (s := S1024x1024) (fun _ => 0) (fun a => (Pipeline.Clip.of (cc0_transform_3 i a) (S1024x1024.size a) (S1024x100000.size a)).extent (S1024x1024.size a)) fun a => (Nat.zero_add _).trans_le (Pipeline.Clip.extent_le (Pipeline.Clip.ok_of (hstart0_3 i a)))).WholeWords (EltTy.packing .f32)

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_arg0) S1024x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpecClip (Memref.whole main_arg2) S1024x512.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_v1) S1024x1024.size cc0_transform_3 reads0_3 true false 2 stage0_3 sem0_3
    hrank0 hreads0_3 hstart0_3 nbuf0_3 (Memref.isWhole_whole _) hwx0_3 hwxs0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1024x512 : Shape := ⟨2, ![1024, 512]⟩
abbrev S1024 : Shape := ⟨1, ![1024]⟩
abbrev S100000x512 : Shape := ⟨2, ![100000, 512]⟩
abbrev S_ : Shape := ⟨0, ![]⟩
abbrev S1024x1 : Shape := ⟨2, ![1024, 1]⟩
abbrev S100000 : Shape := ⟨1, ![100000]⟩
abbrev S100000x1 : Shape := ⟨2, ![100000, 1]⟩
abbrev S512x100000 : Shape := ⟨2, ![512, 100000]⟩
abbrev S1024x100000 : Shape := ⟨2, ![1024, 100000]⟩
abbrev S1x100000 : Shape := ⟨2, ![1, 100000]⟩

abbrev nBuf : Space → Nat
  | .hbm => 62
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S1024, .i32⟩
  | .hbm, ⟨2, _⟩ => ⟨S100000x512, .f32⟩
  | .hbm, ⟨3, _⟩ => ⟨S1024x512, .f32⟩
  | .hbm, ⟨4, _⟩ => ⟨S_, .f32⟩
  | .hbm, ⟨5, _⟩ => ⟨S1024, .f32⟩
  | .hbm, ⟨6, _⟩ => ⟨S1024x1, .f32⟩
  | .hbm, ⟨7, _⟩ => ⟨S1024x1, .f32⟩
  | .hbm, ⟨8, _⟩ => ⟨S_, .f32⟩
  | .hbm, ⟨9, _⟩ => ⟨S1024x1, .f32⟩
  | .hbm, ⟨10, _⟩ => ⟨S1024x1, .f32⟩
  | .hbm, ⟨11, _⟩ => ⟨S1024x512, .f32⟩
  | .hbm, ⟨12, _⟩ => ⟨S1024x512, .f32⟩
  | .hbm, ⟨13, _⟩ => ⟨S100000x512, .f32⟩
  | .hbm, ⟨14, _⟩ => ⟨S_, .f32⟩
  | .hbm, ⟨15, _⟩ => ⟨S100000, .f32⟩
  | .hbm, ⟨16, _⟩ => ⟨S100000x1, .f32⟩
  | .hbm, ⟨17, _⟩ => ⟨S100000x1, .f32⟩
  | .hbm, ⟨18, _⟩ => ⟨S_, .f32⟩
  | .hbm, ⟨19, _⟩ => ⟨S100000x1, .f32⟩
  | .hbm, ⟨20, _⟩ => ⟨S100000x1, .f32⟩
  | .hbm, ⟨21, _⟩ => ⟨S100000x512, .f32⟩
  | .hbm, ⟨22, _⟩ => ⟨S100000x512, .f32⟩
  | .hbm, ⟨23, _⟩ => ⟨S512x100000, .f32⟩
  | .hbm, ⟨24, _⟩ => ⟨S1024x100000, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S1024x100000, .f32⟩
  | .hbm, ⟨29, _⟩ => ⟨S1024x100000, .f32⟩
  | .hbm, ⟨30, _⟩ => ⟨S_, .f32⟩
  | .hbm, ⟨31, _⟩ => ⟨S1024x100000, .f32⟩
  | .hbm, ⟨32, _⟩ => ⟨S1024x100000, .f32⟩
  | .hbm, ⟨33, _⟩ => ⟨S1024x100000, .f32⟩
  | .hbm, ⟨34, _⟩ => ⟨S_, .f32⟩
  | .hbm, ⟨35, _⟩ => ⟨S1024x100000, .f32⟩
  | .hbm, ⟨36, _⟩ => ⟨S1024x100000, .f32⟩
  | .hbm, ⟨37, _⟩ => ⟨S1024x100000, .f32⟩
  | .hbm, ⟨38, _⟩ => ⟨S_, .f32⟩
  | .hbm, ⟨39, _⟩ => ⟨S1024x100000, .f32⟩
  | .hbm, ⟨40, _⟩ => ⟨S1024x100000, .f32⟩
  | .hbm, ⟨41, _⟩ => ⟨S_, .f32⟩
  | .hbm, ⟨42, _⟩ => ⟨S1024x100000, .f32⟩
  | .hbm, ⟨43, _⟩ => ⟨S1024x100000, .f32⟩
  | .hbm, ⟨44, _⟩ => ⟨S1024x100000, .f32⟩
  | .hbm, ⟨45, _⟩ => ⟨S_, .f32⟩
  | .hbm, ⟨46, _⟩ => ⟨S1024x100000, .f32⟩
  | .hbm, ⟨47, _⟩ => ⟨S1024x100000, .i1⟩
  | .hbm, ⟨48, _⟩ => ⟨S_, .f32⟩
  | .hbm, ⟨49, _⟩ => ⟨S1024x100000, .f32⟩
  | .hbm, ⟨50, _⟩ => ⟨S1024x100000, .f32⟩
  | .hbm, ⟨51, _⟩ => ⟨S1024x100000, .f32⟩
  | .hbm, ⟨52, _⟩ => ⟨S100000, .i32⟩
  | .hbm, ⟨53, _⟩ => ⟨S1x100000, .i32⟩
  | .hbm, ⟨54, _⟩ => ⟨S1024x1, .i32⟩
  | .hbm, ⟨55, _⟩ => ⟨S1024x100000, .i32⟩
  | .hbm, ⟨56, _⟩ => ⟨S1024x100000, .i32⟩
  | .hbm, ⟨57, _⟩ => ⟨S1024x100000, .i1⟩
  | .hbm, ⟨58, _⟩ => ⟨S1024x100000, .f32⟩
  | .hbm, ⟨59, _⟩ => ⟨S_, .f32⟩
  | .hbm, ⟨60, _⟩ => ⟨S1024x100000, .f32⟩
  | .hbm, ⟨61, _⟩ => ⟨S1024x100000, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_cst_4 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_v18 : Ref sig .tc := ⟨.hbm, 32, rfl⟩
abbrev main_v19 : Ref sig .tc := ⟨.hbm, 33, rfl⟩
abbrev main_cst_5 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_6 : Ref sig .tc := ⟨.hbm, 38, rfl⟩
abbrev main_v23 : Ref sig .tc := ⟨.hbm, 39, rfl⟩
abbrev main_v24 : Ref sig .tc := ⟨.hbm, 40, rfl⟩
abbrev main_cst_7 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_8 : Ref sig .tc := ⟨.hbm, 45, rfl⟩
abbrev main_v28 : Ref sig .tc := ⟨.hbm, 46, rfl⟩
abbrev main_v29 : Ref sig .tc := ⟨.hbm, 47, rfl⟩
abbrev main_cst_9 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_10 : Ref sig .tc := ⟨.hbm, 59, rfl⟩
abbrev main_v40 : Ref sig .tc := ⟨.hbm, 60, rfl⟩
abbrev main_v41 : Ref sig .tc := ⟨.hbm, 61, rfl⟩

abbrev nD : Nat := 1
abbrev τ : Topo := Topo.v7x

variable {F : FTy → Type} [FloatOps F]

class Facts₀ : Prop where
  reducesTo_S1024x512_S1024_d1 : S1024x512.ReducesTo [1] S1024
  h_S_ : 0 < S_.numel
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024x1_S1024x512_0_1 : S1024x1.BroadcastsInDim S1024x512 (![0, 1] : Fin 2 → Fin S1024x512.rank)
  reducesTo_S100000x512_S100000_d1 : S100000x512.ReducesTo [1] S100000
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x512_0_1 : S100000x1.BroadcastsInDim S100000x512 (![0, 1] : Fin 2 → Fin S100000x512.rank)
  transposes_S100000x512_S512x100000_1_0 : S100000x512.Transposes [1, 0] S512x100000
  bcast_S_S1024x100000 : S_.BroadcastsInDim S1024x100000 (![] : Fin 0 → Fin S1024x100000.rank)
  bcast_S100000_S1x100000_1 : S100000.BroadcastsInDim S1x100000 (![1] : Fin 1 → Fin S1x100000.rank)
  bcast_S1x100000_S1024x100000_0_1 : S1x100000.BroadcastsInDim S1024x100000 (![0, 1] : Fin 2 → Fin S1024x100000.rank)
  bcast_S1024x1_S1024x100000_0_1 : S1024x1.BroadcastsInDim S1024x100000 (![0, 1] : Fin 2 → Fin S1024x100000.rank)
  dot_S1024x512_S512x100000_S1024x100000_1_0_0_1_n_n_wf : DotDims.WF S1024x512 S512x100000 S1024x100000 [1] [0] [0] [1] [] []

variable [Facts₀]

def dot_S1024x512_S512x100000_S1024x100000_1_0_0_1_n_n : DotDims S1024x512 S512x100000 S1024x100000 where
  lhsContracting := [1]
  rhsContracting := [0]
  lhsNonContracting := [0]
  rhsNonContracting := [1]
  lhsBatch := []
  rhsBatch := []
  wf := dot_S1024x512_S512x100000_S1024x100000_1_0_0_1_n_n_wf

class Facts : Prop extends Facts₀ where

variable [Facts]
-- ==== Proof.KernelBody.lean ====
/-
  The kernel body as one step on its four staging buffers, for any float instance.

  At a grid point the body reads the whole embedding block, the whole label column and the whole weight block,
  computes the 1024 × 1024 tile of logits from them, and overwrites the whole result block with it; the three
  inputs are left as they were. `tileOf` names the tile as a function of what the three input buffers hold and of
  the grid coordinate (which enters through the class index of each column, `1024 · j + q`).
-/
import proofs.«159102_j13297218748568_1_alg».proof.Proof.Gen.Kernel.Frame
import proofs.«159102_j13297218748568_1_alg».proof.Proof.Gen.Kernel.Skeleton
import Idealize.ShloMosaic.Lib.Pipeline.FrameBody
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The body's accesses: each the whole of its buffer -/

abbrev rEmb : Rect S1024x512 := Rect.unit (s := S1024x512) ![0, 0] S1024x512.size inb_S1024x512_S1024x512_0_0
abbrev rLbl : Rect S1024x1 := Rect.unit (s := S1024x1) ![0, 0] S1024x1.size inb_S1024x1_S1024x1_0_0
abbrev rOut : Rect S1024x1024 := Rect.unit (s := S1024x1024) ![0, 0] S1024x1024.size inb_S1024x1024_S1024x1024_0_0

/-- The tile of logits the body stores at grid coordinate `i`, from the contents of the embedding buffer `x0`, the
    label buffer `x1` and the weight buffer `x2`: its one whole-buffer store, as a piece. -/
def tileOf (i : grid0.Coords) (x0 : Vec F S1024x512 .f32) (x1 : Vec F S1024x1 .i32) (x2 : Vec F S1024x512 .f32) :
    Vec F S1024x1024 .f32 :=
  View.canon [⟨rOut, k0_pay1 (k0_pay2 (View.ld x0 rEmb) (View.ld x2 rEmb)) (k0_pay3 (View.ld x0 rEmb) (View.ld x2 rEmb))
    (Scalar.muli (BitVec.ofNat 32 (i 0).val) 1024#32) (iota .tc S1024x1024 32 [1] iota_S1024x1024_d1_w32) (View.ld x1 rLbl)⟩]

/-- The one store covers the result buffer. -/
theorem tile_cover (p0 : Vec F S1024x1024 .f32) (y : S1024x1024.Idx) :
    ∃ pc ∈ ([⟨rOut, p0⟩] : List (View.Piece (Elt F) S1024x1024 .f32)), y ∈ pc.1.set :=
  View.cover_of_tiled [⟨rOut, p0⟩] S1024x1024.size (by rfl) y

set_option maxHeartbeats 1000000 in
/-- The body on whole staging memrefs: with the three inputs at `x0`, `x1`, `x2` and the result buffer at anything,
    it runs to the continuation with the inputs as they were and the result buffer at `tileOf i x0 x1 x2`. -/
theorem sound_kernel (c : Dev nD) (E : Set ℕ) (i : grid0.Coords)
    (arg1 : Memref sig .tc .vmem S1024x512 .f32) (harg1 : arg1.IsWhole) (arg2 : Memref sig .tc .vmem S1024x1 .i32) (harg2 : arg2.IsWhole)
    (arg3 : Memref sig .tc .vmem S1024x512 .f32) (harg3 : arg3.IsWhole) (arg4 : Memref sig .tc .vmem S1024x1024 .f32) (harg4 : arg4.IsWhole)
    (x0 : Vec F S1024x512 .f32) (x1 : Vec F S1024x1 .i32) (x2 : Vec F S1024x512 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
              ∗ owns (c : Thread nD τ) arg4 fullShare (tileOf i x0 x1 x2)) -∗ K ⟨⟩))
      ⊢ wp frame (wpE (defs₀ (F := F)) Variants.none c none) E (cc0__arcface_kernel i arg1 harg1 arg2 harg2 arg3 harg3 arg4 harg4) K := by
  simp only [cc0__arcface_kernel_eq_skeleton]; unfold cc0__arcface_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (tile_cover _)

end Cert.Kernel.Hand

end
-- ==== Proof.KernelData.lean ====
/-
  The proof data of the printed (word-level) kernel's one pipeline, its body obligation and its frame.

  The same pipeline as the idealized kernel's: 98 points, the embedding matrix and the label column fetched once, 1024
  weight rows fetched and 1024 result columns written back per point, the last point's block overhanging both arrays
  by 352. The frame claim says nothing of the result array, so the result window is left unnamed: the obligation
  hands its buffer over at any contents and takes it back at any contents, and no property of the word-level
  arithmetic is needed.
-/
import proofs.«159102_j13297218748568_1_alg».proof.Proof.KernelBody
import proofs.«159102_j13297218748568_1_alg».proof.Proof.Gen.Kernel.Launch
import proofs.«159102_j13297218748568_1_alg».proof.Proof.Gen.Kernel.Points
import Idealize.ShloMosaic.Lib.Pipeline.Frame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The weight buffer after the body at point `t`, as the proof data names it: the rows of the weight matrix the
    point's block holds, and the zero word on the rows past the matrix's end (which nothing reads back). -/
def wrows (c : Dev nD) (t : Fin cfg0.N) : S1024x512.Idx → Elt F .f32 :=
  win0_2.fill (grid0.coords t) (fun _ => Scalar.ofBits .f32 0#32) (iblk m c 2 t)

/-- The result window is the one left unnamed. -/
def unnamedOut : Fin cfg0.W → Bool := fun | 0 => false | 1 => false | 2 => false | 3 => true | ⟨_ + 4, h⟩ => absurd h (Nat.not_lt.2 (Nat.le_add_left _ _))

/-- The proof data on core `c`: the arrays as the region finds them; after the body at point `t` the embedding and
    label buffers at their blocks and the weight buffer at `wrows`; the result buffer's entry is never read. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => wrows m c t
    | ⟨3, _⟩ => tileOf (grid0.coords t) (iblk m c 0 t) (iblk m c 1 t) (wrows m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = wrows m c t := by dsimp only [dats]

/-- The embedding and label buffers hold their blocks at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- The weight buffer is fetched at every point: it holds the block's rows inside the matrix, and `d` past them. -/
theorem before0_2 (c : Dev nD) (t : Fin cfg0.N) (d) :
    (dats m 0 c).before 2 t d = win0_2.fill (grid0.coords t) d (iblk m c 2 t) := by
  unfold Dat.before; rw [if_pos (fetch0_2 t)]; rfl

/-! ## The body obligation, the result window unnamed -/

/-- The body at any point: the three input buffers come in as the fetches left them and go out unchanged (the weight
    buffer stated on its rows inside the matrix); the result buffer comes in at anything and goes out at anything. -/
theorem body_obligation (c : Dev nD) :
    BodyObligationLoose (dats (F := F) m 0 c) (defs₀ (F := F)) Variants.none () Set.univ unnamedOut := fun t => by
  rw [bigSep_W0, bigSep_W0]
  simp only [unnamedOut]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩⟩
  rw [before0_0 m c t d0, before0_1 m c t d1, before0_2 m c t d2]
  iapply (sound_kernel (F := F) c Set.univ (grid0.coords t) _ _ _ _ _ _ _ _
    (iblk m c 0 t) (iblk m c 1 t) (win0_2.fill (grid0.coords t) d2 (iblk m c 2 t)) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  rw [after0_0, after0_1, after0_2]
  isplitl [H0]; · iexact H0
  isplitl [H1]; · iexact H1
  have h2 : win0_2.cut (grid0.coords t) (wrows m c t) = iblk m c 2 t := win0_2.cut_fill _ _ _
  isplitl [H2]
  · iexists d2
    change _ ⊢ owns (c : Thread nD τ) (st0_2 t) fullShare (win0_2.fill (grid0.coords t) d2 (win0_2.cut (grid0.coords t) (wrows m c t)))
    rw [h2]; try iexact H2
  · iexists _; iexact H3

/-! ## The run and the frame -/

set_option backward.isDefEq.respectTransparency.types false in
/-- Every weakly fair execution of @main terminates, and every final state has each input array of the pipeline at
    its entry contents (nothing stated of the result array) and every other unscoped buffer as the region found it. -/
theorem run_main :
    θ_run defs (onTc (τ := τ) (main (F := F))) (s₀ m ρ)
      (Pipeline.RDat.FramePost (cfgs 0) (fun c => (dats m 0 c).toRForget unnamedOut) (V m)) :=
  Pipeline.RDat.θ_run_frame cfgs (0 : Fin 1) launch0 defs₀ Variants.none (fun c => (dats m 0 c).toRForget unnamedOut) m ρ main
    (hbody := fun c => (body_obligation m c).toRForget)
    (hshare := fun c => ((dats m 0 c).toRForget unnamedOut).share_full fun _ => rfl)
    (howed := fun _ _ => rfl) (V := V m) (hmain := hmain m Variants.none) (hA := A_eq m) (hΦ := fun _ _ => rfl)

/-- The frame: the run terminates, faults nowhere, and the three argument arrays end as they began — the embedding
    and weight matrices are inputs of the pipeline, never written back; the label vector is staged by no window. -/
theorem frame :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(Eq.mp (congrFun (((dats m 0 c).toRForget unnamedOut).ArrAt_in 0 rfl _) _) ((h c).1 0)).trans ((A_eq m c 0).trans (V_main_arg0 m c)),
      ((h c).2 main_arg1 (Pipeline.mem_restRefs_of main_arg1 (by decide) (by decide))).trans (V_main_arg1 m c),
      (Eq.mp (congrFun (((dats m 0 c).toRForget unnamedOut).ArrAt_in 2 rfl _) _) ((h c).1 2)).trans ((A_eq m c 2).trans (V_main_arg2 m c))⟩)
    (run_main m ρ)

end Cert.Kernel.Hand

end
-- ==== Proof.KernelIdealBody.lean ====
/-
  The kernel body as one step on its four staging buffers, for any float instance.

  At a grid point the body reads the whole embedding block, the whole label column and the whole weight block,
  computes the 1024 × 1024 tile of logits from them, and overwrites the whole result block with it; the three
  inputs are left as they were. `tileOf` names the tile as a function of what the three input buffers hold and of
  the grid coordinate (which enters through the class index of each column, `1024 · j + q`).
-/
import proofs.«159102_j13297218748568_1_alg».proof.Proof.Gen.KernelIdeal.Frame
import proofs.«159102_j13297218748568_1_alg».proof.Proof.Gen.KernelIdeal.Skeleton
import Idealize.ShloMosaic.Lib.Pipeline.FrameBody
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The body's accesses: each the whole of its buffer -/

abbrev rEmb : Rect S1024x512 := Rect.unit (s := S1024x512) ![0, 0] S1024x512.size inb_S1024x512_S1024x512_0_0
abbrev rLbl : Rect S1024x1 := Rect.unit (s := S1024x1) ![0, 0] S1024x1.size inb_S1024x1_S1024x1_0_0
abbrev rOut : Rect S1024x1024 := Rect.unit (s := S1024x1024) ![0, 0] S1024x1024.size inb_S1024x1024_S1024x1024_0_0

/-- The tile of logits the body stores at grid coordinate `i`, from the contents of the embedding buffer `x0`, the
    label buffer `x1` and the weight buffer `x2`: its one whole-buffer store, as a piece. -/
def tileOf (i : grid0.Coords) (x0 : Vec F S1024x512 .f32) (x1 : Vec F S1024x1 .i32) (x2 : Vec F S1024x512 .f32) :
    Vec F S1024x1024 .f32 :=
  View.canon [⟨rOut, k0_pay1 (k0_pay2 (View.ld x0 rEmb) (View.ld x2 rEmb)) (k0_pay3 (View.ld x0 rEmb) (View.ld x2 rEmb))
    (Scalar.muli (BitVec.ofNat 32 (i 0).val) 1024#32) (iota .tc S1024x1024 32 [1] iota_S1024x1024_d1_w32) (View.ld x1 rLbl)⟩]

/-- The one store covers the result buffer. -/
theorem tile_cover (p0 : Vec F S1024x1024 .f32) (y : S1024x1024.Idx) :
    ∃ pc ∈ ([⟨rOut, p0⟩] : List (View.Piece (Elt F) S1024x1024 .f32)), y ∈ pc.1.set :=
  View.cover_of_tiled [⟨rOut, p0⟩] S1024x1024.size (by rfl) y

set_option maxHeartbeats 1000000 in
/-- The body on whole staging memrefs: with the three inputs at `x0`, `x1`, `x2` and the result buffer at anything,
    it runs to the continuation with the inputs as they were and the result buffer at `tileOf i x0 x1 x2`. -/
theorem sound_kernel (c : Dev nD) (E : Set ℕ) (i : grid0.Coords)
    (arg1 : Memref sig .tc .vmem S1024x512 .f32) (harg1 : arg1.IsWhole) (arg2 : Memref sig .tc .vmem S1024x1 .i32) (harg2 : arg2.IsWhole)
    (arg3 : Memref sig .tc .vmem S1024x512 .f32) (harg3 : arg3.IsWhole) (arg4 : Memref sig .tc .vmem S1024x1024 .f32) (harg4 : arg4.IsWhole)
    (x0 : Vec F S1024x512 .f32) (x1 : Vec F S1024x1 .i32) (x2 : Vec F S1024x512 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
              ∗ owns (c : Thread nD τ) arg4 fullShare (tileOf i x0 x1 x2)) -∗ K ⟨⟩))
      ⊢ wp frame (wpE (defs₀ (F := F)) Variants.none c none) E (cc0__arcface_kernel i arg1 harg1 arg2 harg2 arg3 harg3 arg4 harg4) K := by
  simp only [cc0__arcface_kernel_eq_skeleton]; unfold cc0__arcface_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (tile_cover _)

end Cert.KernelIdeal.Hand

end
-- ==== Proof.KernelIdealData.lean ====
/-
  The proof data of the idealized kernel's one pipeline, and its body obligation.

  The grid has 98 points; point `t` stages the whole embedding matrix and the whole label column (both fetched once),
  rows `1024·t ‥ 1024·t + 1023` of the weight matrix, and writes back columns `1024·t ‥ 1024·t + 1023` of the result.
  100000 = 97·1024 + 672, so at the last point only 672 weight rows and 672 result columns lie inside their arrays:
  the weight buffer's last 352 rows then hold words nothing names, and the write-back drops the tile's last 352
  columns. A tile column `q` is a function of weight row `q` alone (`TileLocal`), so the columns that are written back
  do not depend on the unnamed rows.
-/
import proofs.«159102_j13297218748568_1_alg».proof.Proof.KernelIdealBody
import proofs.«159102_j13297218748568_1_alg».proof.Proof.Gen.KernelIdeal.Launch
import proofs.«159102_j13297218748568_1_alg».proof.Proof.Gen.KernelIdeal.Points
import Idealize.ShloMosaic.Lib.Pipeline.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The weight buffer after the body at point `t`, as the proof data names it: the rows of the weight matrix the
    point's block holds, and the zero word on the rows past the matrix's end (which nothing reads back). -/
def wrows (c : Dev nD) (t : Fin cfg0.N) : S1024x512.Idx → Elt F .f32 :=
  win0_2.fill (grid0.coords t) (fun _ => Scalar.ofBits .f32 0#32) (iblk m c 2 t)

/-- The proof data on core `c`: the arrays as the region finds them; after the body at point `t` the embedding and
    label buffers at their blocks, the weight buffer at `wrows`, the result buffer at the tile computed from those. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => wrows m c t
    | ⟨3, _⟩ => tileOf (grid0.coords t) (iblk m c 0 t) (iblk m c 1 t) (wrows m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = wrows m c t := by dsimp only [dats]
theorem after0_3 (c : Dev nD) (t : Fin cfg0.N) :
    (dats m 0 c).after 3 t = tileOf (grid0.coords t) (iblk m c 0 t) (iblk m c 1 t) (wrows m c t) := by dsimp only [dats]

/-- The embedding and label buffers hold their blocks at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- The weight buffer is fetched at every point: it holds the block's rows inside the matrix, and `d` past them. -/
theorem before0_2 (c : Dev nD) (t : Fin cfg0.N) (d) :
    (dats m 0 c).before 2 t d = win0_2.fill (grid0.coords t) d (iblk m c 2 t) := by
  unfold Dat.before; rw [if_pos (fetch0_2 t)]; rfl

/-! ## The body obligation -/

/-- A tile column inside the result depends on the weight buffer only through rows inside the weight matrix: whatever
    fills the rows past the matrix's end, the columns the write-back keeps are the same. (A statement about the tile's
    arithmetic; at the extended reals it is read off the tile's entries.) -/
def TileLocal (F : FTy → Type) [FloatOps F] : Prop :=
  ∀ (t : Fin cfg0.N) (x0 : Vec F S1024x512 .f32) (x1 : Vec F S1024x1 .i32)
    (b2 : (win0_2.xblock (grid0.coords t)).Idx → Elt F .f32) (d d' : S1024x512.Idx → Elt F .f32),
    win0_3.cut (grid0.coords t) (tileOf (grid0.coords t) x0 x1 (win0_2.fill (grid0.coords t) d b2))
      = win0_3.cut (grid0.coords t) (tileOf (grid0.coords t) x0 x1 (win0_2.fill (grid0.coords t) d' b2))

/-- The body at any point, as the pipeline calls it: the embedding and label buffers hold their blocks, the weight
    buffer its block filled out by some `d2`, the result buffer anything; the body leaves the first three as they were
    and the result buffer at the tile of them. The windows' posts: the first two exact; the weight buffer's rows inside
    the matrix are `wrows`' rows; the tile's columns inside the result are, by `TileLocal`, those of the tile over
    `wrows`. -/
theorem body_obligation (hloc : TileLocal F) (c : Dev nD) :
    BodyObligationLoose (dats (F := F) m 0 c) (defs₀ (F := F)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩⟩
  rw [before0_0 m c t d0, before0_1 m c t d1, before0_2 m c t d2]
  iapply (sound_kernel (F := F) c Set.univ (grid0.coords t) _ _ _ _ _ _ _ _
    (iblk m c 0 t) (iblk m c 1 t) (win0_2.fill (grid0.coords t) d2 (iblk m c 2 t)) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  rw [after0_0, after0_1, after0_2, after0_3]
  isplitl [H0]; · iexact H0
  isplitl [H1]; · iexact H1
  have h2 : win0_2.cut (grid0.coords t) (wrows m c t) = iblk m c 2 t := win0_2.cut_fill _ _ _
  isplitl [H2]
  · iexists d2
    change _ ⊢ owns (c : Thread nD τ) (st0_2 t) fullShare (win0_2.fill (grid0.coords t) d2 (win0_2.cut (grid0.coords t) (wrows m c t)))
    rw [h2]; try iexact H2
  · iexists tileOf (grid0.coords t) (iblk m c 0 t) (iblk m c 1 t) (win0_2.fill (grid0.coords t) d2 (iblk m c 2 t))
    change _ ⊢ owns (c : Thread nD τ) (st0_3 t) fullShare (win0_3.fill (grid0.coords t) _ (win0_3.cut (grid0.coords t) (tileOf (grid0.coords t) (iblk m c 0 t) (iblk m c 1 t) (wrows m c t))))
    unfold wrows
    rw [win0_3.fill_congr_cut (grid0.coords t) (hloc t (iblk m c 0 t) (iblk m c 1 t) (iblk m c 2 t) d2 _)]
    try iexact H3

/-! ## The run and the frame -/

set_option backward.isDefEq.respectTransparency.types false in
/-- Every weakly fair execution of @main terminates, and every final state has each array of the pipeline at what the
    write-backs of the proof data leave in it and every other unscoped buffer as the region found it. -/
theorem run_main (hloc : TileLocal F) :
    θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => body_obligation m hloc c) (hshare := fun c => (dats m 0 c).share_full fun _ => rfl)
    (howed := fun _ _ => rfl) (V := V m) (hmain := hmain m Variants.none) (hA := A_eq m) (hΦ := fun _ _ => rfl)

/-- The frame: the run terminates, faults nowhere, and the three argument arrays end as they began. -/
theorem frame (hloc : TileLocal F) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ hloc)

end Cert.KernelIdeal.Hand

end
-- ==== Proof.Spec.lean ====
/-
  The specification: the ArcFace logits as ONE function of the three argument arrays, entry by entry, on the
  extended reals.

  For an embedding row `e` and a class-weight row `w` (512 entries each) write `‖x‖ = max(√(Σ_d x_d²), ε)` for the
  floored Euclidean norm (ε the f32 word nearest 1e-12) and

      cos(e, w) = Σ_d (e_d / ‖e‖) · (w_d / ‖w‖)

  for the cosine of the two normalised rows. The cosine is clamped to [−1 + 1e-7, 1 − 1e-7] (as f32 words), giving
  `c`; the margin form is `c · cos m − √(1 − c²) · sin m` where `c > cos(π − m)` and `c − m · sin(π − m)`
  elsewhere (m = 0.5; all four constants the f32 words the programs print). Entry (b, k) of the result is the margin
  form when class `k` is row `b`'s label and `c` itself otherwise, times 64.

  Nothing here mentions a program: the two idealized programs are each shown to compute `G`.
-/
import Idealize.ShloMosaic.PureOps.Ideal
import Idealize.ShloMosaic.PureOps.Ideal.Laws
import Idealize.ShloMosaic.Lib.ValueIdx

noncomputable section

namespace Cert.ArcSpec

open Idealize.ShloMosaic Idealize.ShloMosaic.ValueIdx

/-- The floor under a row's norm: the f32 word nearest 1e-12. -/
def normFloor : EReal := Ideal.ofBits .f32 0x2B8CBCCC#32

/-- A row's Euclidean norm, floored: `max(√(Σ_d x_d²), ε)`. -/
def rowNorm (x : Fin 512 → EReal) : EReal := max (Ideal.sqrt (∑ d : Fin 512, x d * x d)) normFloor

/-- The cosine of two rows, each divided by its floored norm entry by entry before the products are summed. -/
def cosine (e w : Fin 512 → EReal) : EReal :=
  ∑ d : Fin 512, Ideal.div (e d) (rowNorm e) * Ideal.div (w d) (rowNorm w)

/-- The clamp to [−1 + 1e-7, 1 − 1e-7]: the lower bound first, then the upper. -/
def clamp (x : EReal) : EReal :=
  min (Ideal.ofBits .f32 0x3F7FFFFE#32) (max (Ideal.ofBits .f32 0xBF7FFFFE#32) x)

/-- The additive angular margin applied to a clamped cosine `c`: `cos(θ + m)` by the addition formula where
    `c > cos(π − m)`, and the linear fallback `c − m·sin(π − m)` elsewhere. -/
def withMargin (c : EReal) : EReal :=
  Scalar.select (FloatOps.cmpf (F := Ideal) (φ := .f32) .ogt c (Ideal.ofBits .f32 0xBF60A940#32))
    (c * Ideal.ofBits .f32 0x3F60A940#32
      - Ideal.sqrt (Ideal.ofBits .f32 0x3F800000#32 - c * c) * Ideal.ofBits .f32 0x3EF57744#32)
    (c - Ideal.ofBits .f32 0x3E757744#32)

/-- One logit from an embedding row, a weight row and whether the weight row's class is the embedding's label
    (`hit`, one bit): the margin form at the label, the clamped cosine elsewhere, scaled by 64. -/
def logit (e w : Fin 512 → EReal) (hit : BitVec 1) : EReal :=
  Scalar.select hit (withMargin (clamp (cosine e w))) (clamp (cosine e w)) * Ideal.ofBits .f32 0x42800000#32

/-- The whole result: entry (b, k) is the logit of embedding row `b` against weight row `k`, the label test
    `k = labels[b]` taken on 32-bit words. -/
def G (emb : (⟨2, ![1024, 512]⟩ : Shape).Idx → EReal) (lbl : (⟨1, ![1024]⟩ : Shape).Idx → BitVec 32)
    (wt : (⟨2, ![100000, 512]⟩ : Shape).Idx → EReal) : (⟨2, ![1024, 100000]⟩ : Shape).Idx → EReal :=
  fun i => logit (fun d => emb (ix2 (i 0) d)) (fun d => wt (ix2 (i 1) d))
    (IntOp.cmpi .eq (BitVec.ofNat 32 (i 1).val) (lbl (ix1 (i 0))))

/-- `G` at explicit coordinates. -/
theorem G_apply (emb : (⟨2, ![1024, 512]⟩ : Shape).Idx → EReal) (lbl : (⟨1, ![1024]⟩ : Shape).Idx → BitVec 32)
    (wt : (⟨2, ![100000, 512]⟩ : Shape).Idx → EReal) (b : Fin 1024) (k : Fin 100000) :
    G emb lbl wt (ix2 b k) = logit (fun d => emb (ix2 b d)) (fun d => wt (ix2 k d))
      (IntOp.cmpi .eq (BitVec.ofNat 32 k.val) (lbl (ix1 b))) := rfl

end Cert.ArcSpec

end
-- ==== Proof.LibRowForms.lean ====
/-
  Matrices and vectors read at an index through the layout operations a keep-dimensions row sum and a
  stacked weight matrix need: a vector cast to a column, a column broadcast along the rows, the sum over the
  columns of a matrix at a row, and three matrices of one shape laid side by side, read in each third.
  Stated over literal-extent index constructors (`ix1`, `ix2`), for any extents.
-/
import Idealize.ShloMosaic.Lib.Pipeline.Value
import Idealize.ShloMosaic.Lib.ValueIdx
import Idealize.ShloMosaic.Lib.ValueLayout
import Idealize.ShloMosaic.PureOps.Ideal.Laws

noncomputable section

namespace Cert.LibRowForms

open Idealize.ShloMosaic Idealize.ShloMosaic.ValueIdx
open scoped BigOperators

variable {α : Type}

/-- An `[a]` vector cast to a column `[a, 1]` reads, at `(i, u)`, the vector at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along the rows to `[a, b]` reads, at `(p, c)`, the column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- On the extended reals, the vector unit's sum over the columns of an `[a, b]` matrix is, at row `p`, the sum
    of that row's `b` entries. -/
theorem laneSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ)
    (hacc : acc = FKind.add.neutral φ hφ) (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src ?_
  funext c; apply Fin.ext
  match c with
  | ⟨0, _⟩ => rfl
  | ⟨1, _⟩ => rfl

/-- Three `[n, w]` matrices laid side by side into `[n, W]`: a column `q` of the first third reads the first
    matrix at that column, -/
theorem concat3_cols_first {n w W : ℕ} (A B C : (⟨2, ![n, w]⟩ : Shape).Idx → α)
    (h : Shape.Concatenates [(⟨2, ![n, w]⟩ : Shape), ⟨2, ![n, w]⟩, ⟨2, ![n, w]⟩] ⟨2, ![n, W]⟩ 1)
    (r : Fin n) (q : Fin W) (j : Fin w) (hq : q.val = j.val) :
    concatenate ⟨2, ![n, W]⟩ 1 [⟨⟨2, ![n, w]⟩, A⟩, ⟨⟨2, ![n, w]⟩, B⟩, ⟨⟨2, ![n, w]⟩, C⟩] h (ix2 r q) = A (ix2 r j) :=
  concatenate_apply_piece (t := ⟨2, ![n, W]⟩) (1 : Fin 2) [⟨⟨2, ![n, w]⟩, A⟩, ⟨⟨2, ![n, w]⟩, B⟩, ⟨⟨2, ![n, w]⟩, C⟩] h (ix2 r q) 0 (Nat.zero_lt_succ _) _ A rfl rfl 0 rfl (ix2 r j)
    (fun b hb => by
      match b with
      | ⟨0, _⟩ => rfl
      | ⟨1, _⟩ => exact absurd rfl hb)
    (by show 0 + j.val = q.val; omega)

/-- a column `w + j` of the second third the second matrix at column `j`, -/
theorem concat3_cols_second {n w W : ℕ} (A B C : (⟨2, ![n, w]⟩ : Shape).Idx → α)
    (h : Shape.Concatenates [(⟨2, ![n, w]⟩ : Shape), ⟨2, ![n, w]⟩, ⟨2, ![n, w]⟩] ⟨2, ![n, W]⟩ 1)
    (r : Fin n) (q : Fin W) (j : Fin w) (hq : q.val = w + j.val) :
    concatenate ⟨2, ![n, W]⟩ 1 [⟨⟨2, ![n, w]⟩, A⟩, ⟨⟨2, ![n, w]⟩, B⟩, ⟨⟨2, ![n, w]⟩, C⟩] h (ix2 r q) = B (ix2 r j) :=
  concatenate_apply_piece (t := ⟨2, ![n, W]⟩) (1 : Fin 2) [⟨⟨2, ![n, w]⟩, A⟩, ⟨⟨2, ![n, w]⟩, B⟩, ⟨⟨2, ![n, w]⟩, C⟩] h (ix2 r q) 1 (Nat.succ_lt_succ (Nat.zero_lt_succ _)) _ B rfl rfl w (by simp) (ix2 r j)
    (fun b hb => by
      match b with
      | ⟨0, _⟩ => rfl
      | ⟨1, _⟩ => exact absurd rfl hb)
    (by show w + j.val = q.val; omega)

/-- and a column `2 w + j` of the last third the third matrix at column `j`. -/
theorem concat3_cols_third {n w W : ℕ} (A B C : (⟨2, ![n, w]⟩ : Shape).Idx → α)
    (h : Shape.Concatenates [(⟨2, ![n, w]⟩ : Shape), ⟨2, ![n, w]⟩, ⟨2, ![n, w]⟩] ⟨2, ![n, W]⟩ 1)
    (r : Fin n) (q : Fin W) (j : Fin w) (hq : q.val = w + w + j.val) :
    concatenate ⟨2, ![n, W]⟩ 1 [⟨⟨2, ![n, w]⟩, A⟩, ⟨⟨2, ![n, w]⟩, B⟩, ⟨⟨2, ![n, w]⟩, C⟩] h (ix2 r q) = C (ix2 r j) :=
  concatenate_apply_piece (t := ⟨2, ![n, W]⟩) (1 : Fin 2) [⟨⟨2, ![n, w]⟩, A⟩, ⟨⟨2, ![n, w]⟩, B⟩, ⟨⟨2, ![n, w]⟩, C⟩] h (ix2 r q) 2 (Nat.succ_lt_succ (Nat.succ_lt_succ (Nat.zero_lt_succ _))) _ C rfl rfl (w + w) (by simp) (ix2 r j)
    (fun b hb => by
      match b with
      | ⟨0, _⟩ => rfl
      | ⟨1, _⟩ => exact absurd rfl hb)
    (by show w + w + j.val = q.val; omega)

end Cert.LibRowForms

end
-- ==== Proof.PayValue.lean ====
/-
  The kernel body's arithmetic read at one entry. Entry (p, q) of the body's result depends on row p of the
  first operand, row q of the second operand and word p of the label column only: both rows are divided by
  their floored Euclidean norms, the products of the two normalised rows are summed over the 512 columns
  (a matrix product against the transposed second operand, onto a zero accumulator), the sum is clamped, the
  angular margin is applied where the column's class word equals the row's label, and the result is scaled.
-/
import proofs.«159102_j13297218748568_1_alg».proof.Proof.Gen.KernelIdeal.Skeleton
import proofs.«159102_j13297218748568_1_alg».proof.Proof.Spec
import proofs.«159102_j13297218748568_1_alg».proof.Proof.LibRowForms
import Idealize.ShloMosaic.Lib.ValueIdx
import Idealize.ShloMosaic.Lib.Pipeline.Value
import Idealize.ShloMosaic.Lib.ValueLayout
import Idealize.ShloMosaic.PureOps.Ideal.Laws

set_option synthInstance.maxSize 4096

noncomputable section

namespace Cert.KernelIdeal.PayValue

open Cert.KernelIdeal Cert.KernelIdeal.Gen Idealize.ShloMosaic Idealize.ShloMosaic.ValueIdx
open scoped BigOperators

/-! ## A row's floored norm, as the body computes it -/

/-- The floored norm of every row, spread along the row: the squares summed over the columns, cast to a
    column, the square root, the maximum with the floor, and the column broadcast along the rows. -/
def normB (x : Vec Ideal S1024x512 .f32) : FVec Ideal S1024x512 .f32 :=
  broadcastTo S1024x512
    (maximumf
      (sqrt (shapeCast S1024x1
        (multiReduction (F := Ideal) .add [1] S1024 (mulf x x) 0x00000000#32 reduces_S1024x512_S1024 (.inl rfl) rfl)
        shapeCasts_S1024_S1024x1))
      (broadcast S1024x1 (Scalar.ofBits (F := Ideal) .f32 0x2B8CBCCC#32)))
    broadcasts_S1024x1_S1024x512

/-- At (p, d) it is the floored norm of row p. -/
theorem normB_apply (x : Vec Ideal S1024x512 .f32) (p : Fin 1024) (d : Fin 512) :
    normB x (ix2 p d) = Cert.ArcSpec.rowNorm (fun d => x (ix2 p d)) := by
  unfold normB
  refine (Cert.LibRowForms.broadcastTo_a1_ab_apply _ broadcasts_S1024x1_S1024x512 p d).trans ?_
  show max (Ideal.sqrt (shapeCast S1024x1
        (multiReduction (F := Ideal) .add [1] S1024 (mulf x x) 0x00000000#32 reduces_S1024x512_S1024 (.inl rfl) rfl)
        shapeCasts_S1024_S1024x1 (ix2 p (0 : Fin 1)))) (Ideal.ofBits .f32 0x2B8CBCCC#32)
      = max (Ideal.sqrt (∑ d : Fin 512, x (ix2 p d) * x (ix2 p d))) (Ideal.ofBits .f32 0x2B8CBCCC#32)
  refine congrArg (fun t => max (Ideal.sqrt t) (Ideal.ofBits .f32 0x2B8CBCCC#32)) ?_
  refine (Cert.LibRowForms.shapeCast_a_a1_apply _ shapeCasts_S1024_S1024x1 p (0 : Fin 1)).trans ?_
  exact Cert.LibRowForms.laneSum_apply (mulf x x) 0x00000000#32 reduces_S1024x512_S1024 (.inl rfl) rfl p

/-! ## The transposed operand and the matrix product at an entry -/

/-- The transpose of a [1024, 512] matrix reads, at (d, q), the matrix at (q, d). -/
theorem transpose_at {α : Type} (y : S1024x512.Idx → α) (d : Fin 512) (q : Fin 1024) :
    transpose S512x1024 [1, 0] y transposes_S1024x512_p1_0_S512x1024 (ix2 d q) = y (ix2 q d) :=
  transpose_apply [1, 0] y transposes_S1024x512_p1_0_S512x1024 (ix2 d q) (ix2 q d) (fun b => match b with
    | ⟨0, _⟩ => rfl
    | ⟨1, _⟩ => rfl)

theorem lhs_0 (i : S1024x1024.Idx) (k : dot_S1024x512_S512x1024_S1024x1024_1_0_0_1_n_n.contr.Idx) :
    (dot_S1024x512_S512x1024_S1024x1024_1_0_0_1_n_n.lhsIdx i k 0).val = (i 0).val := by
  unfold DotDims.lhsIdx
  rw [dif_neg (show ¬(0 : Fin S1024x512.rank) ∈ dot_S1024x512_S512x1024_S1024x1024_1_0_0_1_n_n.lhsBatch by decide), dif_pos (show (0 : Fin S1024x512.rank) ∈ dot_S1024x512_S512x1024_S1024x1024_1_0_0_1_n_n.lhsNonContracting by decide)]
  rfl
theorem lhs_1 (i : S1024x1024.Idx) (k : dot_S1024x512_S512x1024_S1024x1024_1_0_0_1_n_n.contr.Idx) :
    (dot_S1024x512_S512x1024_S1024x1024_1_0_0_1_n_n.lhsIdx i k 1).val = (k ⟨0, by decide⟩).val :=
  dot_S1024x512_S512x1024_S1024x1024_1_0_0_1_n_n.lhsIdx_val_of_single rfl i k
theorem rhs_0 (i : S1024x1024.Idx) (k : dot_S1024x512_S512x1024_S1024x1024_1_0_0_1_n_n.contr.Idx) :
    (dot_S1024x512_S512x1024_S1024x1024_1_0_0_1_n_n.rhsIdx i k 0).val = (k ⟨0, by decide⟩).val :=
  dot_S1024x512_S512x1024_S1024x1024_1_0_0_1_n_n.rhsIdx_val_of_single rfl i k
theorem rhs_1 (i : S1024x1024.Idx) (k : dot_S1024x512_S512x1024_S1024x1024_1_0_0_1_n_n.contr.Idx) :
    (dot_S1024x512_S512x1024_S1024x1024_1_0_0_1_n_n.rhsIdx i k 1).val = (i 1).val := by
  unfold DotDims.rhsIdx
  rw [dif_neg (show ¬(1 : Fin S512x1024.rank) ∈ dot_S1024x512_S512x1024_S1024x1024_1_0_0_1_n_n.rhsBatch by decide), dif_pos (show (1 : Fin S512x1024.rank) ∈ dot_S1024x512_S512x1024_S1024x1024_1_0_0_1_n_n.rhsNonContracting by decide)]
  rfl

/-- The product of a [1024, 512] and a [512, 1024] matrix onto the zero accumulator is, at (p, q), the sum over
    the 512 contracted positions of the products of row p of the first with column q of the second. -/
theorem matmul_at (A : FVec Ideal S1024x512 .bf16) (B : FVec Ideal S512x1024 .bf16) (p q : Fin 1024) :
    matmul dot_S1024x512_S512x1024_S1024x1024_1_0_0_1_n_n none A B (constant (F := Ideal) S1024x1024 .f32 0x00000000#32) (ix2 p q)
      = ∑ d : Fin 512, A (ix2 p d) * B (ix2 d q) := by
  simp only [matmul]
  rw [Ideal.matmul_constant_zero_apply, ← Equiv.sum_comp (ValueIdx.contrEquiv1 dot_S1024x512_S512x1024_S1024x1024_1_0_0_1_n_n 512 rfl rfl).symm]
  refine Finset.sum_congr rfl fun k _ => ?_
  have hk := ValueIdx.contrEquiv1_symm_val dot_S1024x512_S512x1024_S1024x1024_1_0_0_1_n_n 512 rfl rfl k
  have el : dot_S1024x512_S512x1024_S1024x1024_1_0_0_1_n_n.lhsIdx (ix2 p q) ((ValueIdx.contrEquiv1 dot_S1024x512_S512x1024_S1024x1024_1_0_0_1_n_n 512 rfl rfl).symm k) = ix2 p k := funext fun a => Fin.ext (by
    match a with
    | ⟨0, _⟩ => exact lhs_0 _ _
    | ⟨1, _⟩ => exact (lhs_1 _ _).trans hk)
  have er : dot_S1024x512_S512x1024_S1024x1024_1_0_0_1_n_n.rhsIdx (ix2 p q) ((ValueIdx.contrEquiv1 dot_S1024x512_S512x1024_S1024x1024_1_0_0_1_n_n 512 rfl rfl).symm k) = ix2 k q := funext fun a => Fin.ext (by
    match a with
    | ⟨0, _⟩ => exact (rhs_0 _ _).trans hk
    | ⟨1, _⟩ => exact rhs_1 _ _)
  rw [el, er]

/-! ## The clamped cosine -/

/-- The body's first value at (p, q) is the clamped cosine of row p of the first operand and row q of the second. -/
theorem cosine_apply (x0 x2 : Vec Ideal S1024x512 .f32) (p q : Fin 1024) :
    Gen.k0_pay2 (F := Ideal) x0 x2 (ix2 p q)
      = Cert.ArcSpec.clamp (Cert.ArcSpec.cosine (fun d => x0 (ix2 p d)) (fun d => x2 (ix2 q d))) := by
  unfold Gen.k0_pay2
  show min (Ideal.ofBits .f32 0x3F7FFFFE#32) (max (Ideal.ofBits .f32 0xBF7FFFFE#32)
      (matmul dot_S1024x512_S512x1024_S1024x1024_1_0_0_1_n_n none
        (truncf .bf16 (divf x0 (normB x0)) bitsLt_bf16_f32)
        (transpose S512x1024 [1, 0] (truncf .bf16 (divf x2 (normB x2)) bitsLt_bf16_f32) transposes_S1024x512_p1_0_S512x1024)
        (constant (F := Ideal) S1024x1024 .f32 0x00000000#32) (ix2 p q)))
    = min (Ideal.ofBits .f32 0x3F7FFFFE#32) (max (Ideal.ofBits .f32 0xBF7FFFFE#32)
      (∑ d : Fin 512, Ideal.div (x0 (ix2 p d)) (Cert.ArcSpec.rowNorm (fun d => x0 (ix2 p d)))
        * Ideal.div (x2 (ix2 q d)) (Cert.ArcSpec.rowNorm (fun d => x2 (ix2 q d)))))
  refine congrArg (fun t => min (Ideal.ofBits .f32 0x3F7FFFFE#32) (max (Ideal.ofBits .f32 0xBF7FFFFE#32) t)) ?_
  refine (matmul_at _ _ p q).trans ?_
  refine Finset.sum_congr rfl fun d _ => ?_
  rw [transpose_at]
  show Ideal.div (x0 (ix2 p d)) (normB x0 (ix2 p d)) * Ideal.div (x2 (ix2 q d)) (normB x2 (ix2 q d)) = _
  rw [normB_apply, normB_apply]

/-! ## The margin and the label select -/

/-- The body's second value at (p, q) is the margin form of its first value there. -/
theorem margin_apply (x0 x2 : Vec Ideal S1024x512 .f32) (p q : Fin 1024) :
    Gen.k0_pay3 (F := Ideal) x0 x2 (ix2 p q) = Cert.ArcSpec.withMargin (Gen.k0_pay2 (F := Ideal) x0 x2 (ix2 p q)) := by
  unfold Gen.k0_pay3
  generalize Gen.k0_pay2 (F := Ideal) x0 x2 = c
  rfl

/-- The class word of column q: the block's first class word plus q. -/
theorem classWord_apply (v40 : BitVec 32) (p q : Fin 1024) :
    addi (broadcast S1024x1024 v40) (iota .tc S1024x1024 32 [1] iota_S1024x1024_d1_w32) (ix2 p q)
      = v40 + BitVec.ofNat 32 q.val := by
  show IntOp.addi v40 (iota .tc S1024x1024 32 [1] iota_S1024x1024_d1_w32 (ix2 p q)) = _
  rw [iota_single_apply]
  rfl

/-- The label column spread along the rows reads, at (p, q), the label of row p. -/
theorem label_apply (x1 : Vec Ideal S1024x1 .i32) (p q : Fin 1024) :
    broadcastTo S1024x1024 (shapeCast S1024x1 x1 shapeCasts_S1024x1_S1024x1) broadcasts_S1024x1_S1024x1024 (ix2 p q)
      = x1 (ix2 p (0 : Fin 1)) := by
  rw [shapeCast_self]
  exact Cert.LibRowForms.broadcastTo_a1_ab_apply x1 broadcasts_S1024x1_S1024x1024 p q

/-- The body's result at (p, q), for any first class word of the block. -/
theorem pay_apply_word (v40 : BitVec 32) (x0 : Vec Ideal S1024x512 .f32) (x1 : Vec Ideal S1024x1 .i32) (x2 : Vec Ideal S1024x512 .f32) (p q : Fin 1024) :
    Gen.k0_pay1 (F := Ideal) (Gen.k0_pay2 x0 x2) (Gen.k0_pay3 x0 x2) v40 (iota .tc S1024x1024 32 [1] iota_S1024x1024_d1_w32) x1 (ix2 p q)
      = Cert.ArcSpec.logit (fun d => x0 (ix2 p d)) (fun d => x2 (ix2 q d)) (IntOp.cmpi .eq (v40 + BitVec.ofNat 32 q.val) (x1 (ix2 p (0 : Fin 1)))) := by
  unfold Gen.k0_pay1
  show Scalar.select (IntOp.cmpi .eq
        (addi (broadcast S1024x1024 v40) (iota .tc S1024x1024 32 [1] iota_S1024x1024_d1_w32) (ix2 p q))
        (broadcastTo S1024x1024 (shapeCast S1024x1 x1 shapeCasts_S1024x1_S1024x1) broadcasts_S1024x1_S1024x1024 (ix2 p q)))
      (Gen.k0_pay3 (F := Ideal) x0 x2 (ix2 p q)) (Gen.k0_pay2 (F := Ideal) x0 x2 (ix2 p q)) * Ideal.ofBits .f32 0x42800000#32 = _
  rw [classWord_apply, label_apply, margin_apply, cosine_apply]
  rfl

/-- The body's result at (p, q) of block j: the class word of column q is j · 1024 + q. -/
theorem pay_apply (j : Fin 98) (x0 : Vec Ideal S1024x512 .f32) (x1 : Vec Ideal S1024x1 .i32) (x2 : Vec Ideal S1024x512 .f32) (p q : Fin 1024) :
    Gen.k0_pay1 (F := Ideal) (Gen.k0_pay2 x0 x2) (Gen.k0_pay3 x0 x2) (Scalar.muli (BitVec.ofNat 32 j.val) 1024#32) (iota .tc S1024x1024 32 [1] iota_S1024x1024_d1_w32) x1 (ix2 p q)
      = Cert.ArcSpec.logit (fun d => x0 (ix2 p d)) (fun d => x2 (ix2 q d)) (IntOp.cmpi .eq (BitVec.ofNat 32 (j.val * 1024 + q.val)) (x1 (ix2 p (0 : Fin 1)))) := by
  rw [pay_apply_word]
  have hw : Scalar.muli (BitVec.ofNat 32 j.val) 1024#32 + BitVec.ofNat 32 q.val = BitVec.ofNat 32 (j.val * 1024 + q.val) := by
    show BitVec.ofNat 32 j.val * BitVec.ofNat 32 1024 + BitVec.ofNat 32 q.val = _
    rw [← BitVec.ofNat_mul, ← BitVec.ofNat_add]
  rw [hw]

end Cert.KernelIdeal.PayValue

end
-- ==== Proof.KernelIdealValue.lean ====
/-
  The idealized kernel's result array, on the extended reals, is the specification's `G` of the argument arrays.

  The tile stored at grid point `t` has, at row `p` and column `q`, the logit of embedding row `p` against the weight
  buffer's row `q` with class index `1024·t + q`. Weight-buffer row `q` is weight-matrix row `1024·t + q` whenever that
  row exists, which is exactly when result column `1024·t + q` exists: so every column the write-back keeps is the
  corresponding column of `G`, whatever the rows past the matrix's end hold (`tileLocal`), and the 98 blocks of
  columns cover the result (`100000 ≤ 98·1024`).
-/
import proofs.«159102_j13297218748568_1_alg».proof.Proof.KernelIdealData
import proofs.«159102_j13297218748568_1_alg».proof.Proof.PayValue
import proofs.«159102_j13297218748568_1_alg».proof.Proof.Spec
import proofs.«159102_j13297218748568_1_alg».proof.Proof.LibRowForms
import Idealize.ShloMosaic.Lib.Pipeline.Value
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

/-! ## The tile in closed form -/

theorem zeroOffsets : (![0, 0] : Fin 2 → Nat) = fun _ => 0 := funext fun a => by fin_cases a <;> rfl

/-- The tile is its one store's payload, over the buffers' contents themselves (every access is a whole buffer). -/
theorem tileOf_eq {F : FTy → Type} [FloatOps F] (i : grid0.Coords) (x0 : Vec F S1024x512 .f32) (x1 : Vec F S1024x1 .i32)
    (x2 : Vec F S1024x512 .f32) :
    tileOf i x0 x1 x2 = k0_pay1 (k0_pay2 x0 x2) (k0_pay3 x0 x2) (Scalar.muli (BitVec.ofNat 32 (i 0).val) 1024#32)
      (iota .tc S1024x1024 32 [1] iota_S1024x1024_d1_w32) x1 := by
  unfold tileOf
  rw [View.canon_unit_zero zeroOffsets]
  simp only [View.ld_unit_zero (S := S1024x512) zeroOffsets, View.ld_unit_zero (S := S1024x1) zeroOffsets]

/-- The schedule, decided over the 98 grid points: the one grid coordinate is the point; the embedding and label blocks
    are the whole arrays; the weight block at point `t` starts at row `1024·t` and the result block at column `1024·t`;
    both are cut to `min(1024, 100000 − 1024·t)` on that axis and whole on the other. -/
theorem schedule : ∀ t : Fin cfg0.N,
    (grid0.coords t 0).val = t.val
    ∧ win0_0.index t (0 : Fin 2) = 0 ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = t.val
    ∧ win0_2.xsize (grid0.coords t) (0 : Fin 2) = min 1024 (100000 - t.val * 1024)
    ∧ win0_2.xsize (grid0.coords t) (1 : Fin 2) = 512
    ∧ win0_3.xsize (grid0.coords t) (0 : Fin 2) = 1024
    ∧ win0_3.xsize (grid0.coords t) (1 : Fin 2) = min 1024 (100000 - t.val * 1024) :=
  (by decide +kernel : ∀ t : Fin grid0.N, _)

/-- The tile at a point, entry by entry: the logit of embedding-buffer row `p` against weight-buffer row `q`, the class
    index of column `q` being `1024·t + q`. -/
theorem tile_apply (t : Fin cfg0.N) (x0 : Vec Ideal S1024x512 .f32) (x1 : Vec Ideal S1024x1 .i32)
    (x2 : Vec Ideal S1024x512 .f32) (p q : Fin 1024) :
    tileOf (F := Ideal) (grid0.coords t) x0 x1 x2 (ix2 p q)
      = Cert.ArcSpec.logit (fun d => x0 (ix2 p d)) (fun d => x2 (ix2 q d))
          (IntOp.cmpi .eq (BitVec.ofNat 32 (t.val * 1024 + q.val)) (x1 (ix2 p (0 : Fin 1)))) := by
  rw [tileOf_eq, (schedule t).1]
  exact Cert.KernelIdeal.PayValue.pay_apply (Fin.cast N_0 t) x0 x1 x2 p q

/-- A kept tile column does not depend on what fills the weight buffer past the matrix's end. -/
theorem tileLocal : TileLocal Ideal := by
  intro t x0 x1 b2 d d'
  obtain ⟨-, -, -, -, -, -, -, -, -, h20, h21, h30, h31⟩ := schedule t
  funext y
  have hp : (y 0).val < 1024 := h30 ▸ (y 0).isLt
  have hq : (y 1).val < win0_2.xsize (grid0.coords t) (0 : Fin 2) := by rw [h20, ← h31]; exact (y 1).isLt
  have hq' : (y 1).val < 1024 := by
    have h : (y 1).val < win0_3.xsize (grid0.coords t) (1 : Fin 2) := (y 1).isLt
    rw [h31] at h; omega
  have e : win0_3.xinj (grid0.coords t) y = ix2 (⟨(y 0).val, hp⟩ : Fin 1024) (⟨(y 1).val, hq'⟩ : Fin 1024) :=
    funext fun a => Fin.ext (by match a with | ⟨0, _⟩ => rfl | ⟨1, _⟩ => rfl)
  show tileOf _ x0 x1 _ (win0_3.xinj _ y) = tileOf _ x0 x1 _ (win0_3.xinj _ y)
  rw [e, tile_apply, tile_apply]
  congr 1
  funext dd
  have hm : win0_2.moved (grid0.coords t) (ix2 (⟨(y 1).val, hq'⟩ : Fin 1024) dd) = true :=
    (win0_2.moved_iff _ _).mpr fun a => by
      match a with
      | ⟨0, _⟩ => exact hq
      | ⟨1, _⟩ => show dd.val < win0_2.xsize (grid0.coords t) (1 : Fin 2); rw [h21]; exact dd.isLt
  unfold Window.fill
  rw [dif_pos hm, dif_pos hm]

variable (m : (ℓ : Loc nD τ sig) → Buf (Elt Ideal) ℓ) (ρ : Dev nD → PrngReg)

/-! ## The blocks, read off the arrays the region finds -/

/-- The label column the region finds is the label vector cast to a column (the one host operation before the region). -/
theorem V_labels (c : Dev nD) :
    (V m c main_v0 : S1024x1.Idx → BitVec 32)
      = shapeCast S1024x1 (m ((c : Thread nD τ).loc main_arg1) : S1024.Idx → BitVec 32) shapeCasts_S1024_S1024x1 := by
  dsimp only [V, hostOps0]; after_results; rfl

/-- The embedding block is the whole embedding matrix at every point. -/
theorem emb_read (c : Dev nD) (t : Fin cfg0.N) (p : Fin 1024) (d : Fin 512) :
    iblk m c 0 t (ix2 p d) = V m c main_arg0 (ix2 p d) := by
  obtain ⟨-, i00, i01, -⟩ := schedule t
  show V m c main_arg0 (((cfg0.win 0).blk t).view.emb (ix2 p d)) = V m c main_arg0 (ix2 p d)
  refine congrArg _ (funext fun a => Fin.ext ?_)
  match a with
  | ⟨0, _⟩ => show win0_0.index t (0 : Fin 2) * 1024 + 1 * p.val = p.val; rw [i00]; omega
  | ⟨1, _⟩ => show win0_0.index t (1 : Fin 2) * 512 + 1 * d.val = d.val; rw [i01]; omega

/-- The label block is the whole label column: word `p` of the label vector at row `p`. -/
theorem lbl_read (c : Dev nD) (t : Fin cfg0.N) (p : Fin 1024) :
    iblk m c 1 t (ix2 p (0 : Fin 1)) = m ((c : Thread nD τ).loc main_arg1) (ix1 p) := by
  obtain ⟨-, -, -, i10, i11, -⟩ := schedule t
  have e : iblk m c 1 t (ix2 p (0 : Fin 1)) = V m c main_v0 (ix2 p (0 : Fin 1)) := by
    show V m c main_v0 (((cfg0.win 1).blk t).view.emb (ix2 p (0 : Fin 1))) = V m c main_v0 (ix2 p (0 : Fin 1))
    refine congrArg _ (funext fun a => Fin.ext ?_)
    match a with
    | ⟨0, _⟩ => show win0_1.index t (0 : Fin 2) * 1024 + 1 * p.val = p.val; rw [i10]; omega
    | ⟨1, _⟩ => show win0_1.index t (1 : Fin 2) * 1 + 1 * 0 = 0; rw [i11]
  rw [e, V_labels]
  exact Cert.LibRowForms.shapeCast_a_a1_apply _ _ p 0

/-- Row `q` of the weight buffer as the proof data names it, when weight-matrix row `1024·t + q` exists, is that row. -/
theorem wt_read (c : Dev nD) (t : Fin cfg0.N) (q : Fin 1024) (hq : t.val * 1024 + q.val < 100000) (d : Fin 512) :
    wrows m c t (ix2 q d) = V m c main_arg2 (ix2 (⟨t.val * 1024 + q.val, hq⟩ : Fin 100000) d) := by
  obtain ⟨-, -, -, -, -, i20, i21, -, -, h20, h21, -, -⟩ := schedule t
  have hm : win0_2.moved (grid0.coords t) (ix2 q d) = true :=
    (win0_2.moved_iff _ _).mpr fun a => by
      match a with
      | ⟨0, _⟩ => show q.val < win0_2.xsize (grid0.coords t) (0 : Fin 2); rw [h20]; have := q.isLt; omega
      | ⟨1, _⟩ => show d.val < win0_2.xsize (grid0.coords t) (1 : Fin 2); rw [h21]; exact d.isLt
  unfold wrows Window.fill
  rw [dif_pos hm]
  show V m c main_arg2 (((cfg0.win 2).blk t).view.emb _) = V m c main_arg2 _
  refine congrArg _ (funext fun a => Fin.ext ?_)
  match a with
  | ⟨0, _⟩ => show win0_2.index t (0 : Fin 2) * 1024 + 1 * q.val = t.val * 1024 + q.val; rw [i20]; omega
  | ⟨1, _⟩ => show win0_2.index t (1 : Fin 2) * 512 + 1 * d.val = d.val; rw [i21]; omega

/-! ## What each point writes back, and the cover -/

/-- What point `t` writes back is block `t` of `G` of the arrays the region finds. -/
theorem flushed_eq (c : Dev nD) (t : Fin cfg0.N) :
    (dats (F := Ideal) m 0 c).flushed 3 t = ((cfg0.win 3).blk t).view.read (Elt Ideal)
      (Cert.ArcSpec.G (V m c main_arg0) (m ((c : Thread nD τ).loc main_arg1)) (V m c main_arg2)) := by
  show (cfg0.win 3).cut (grid0.coords t) ((dats m 0 c).after 3 t) = _
  rw [after0_3]
  obtain ⟨-, -, -, -, -, -, -, i30, i31, -, -, h30, h31⟩ := schedule t
  funext y
  have hp : (y 0).val < 1024 := h30 ▸ (y 0).isLt
  have hy1 : (y 1).val < win0_3.xsize (grid0.coords t) (1 : Fin 2) := (y 1).isLt
  rw [h31] at hy1
  have hq' : (y 1).val < 1024 := by omega
  have hk : t.val * 1024 + (y 1).val < 100000 := by omega
  have e : win0_3.xinj (grid0.coords t) y = ix2 (⟨(y 0).val, hp⟩ : Fin 1024) (⟨(y 1).val, hq'⟩ : Fin 1024) :=
    funext fun a => Fin.ext (by match a with | ⟨0, _⟩ => rfl | ⟨1, _⟩ => rfl)
  have eemb : ((cfg0.win 3).blk t).view.emb y
      = ix2 (⟨(y 0).val, hp⟩ : Fin 1024) (⟨t.val * 1024 + (y 1).val, hk⟩ : Fin 100000) :=
    funext fun a => Fin.ext (by
      match a with
      | ⟨0, _⟩ => show win0_3.index t (0 : Fin 2) * 1024 + 1 * (y 0).val = (y 0).val; rw [i30]; omega
      | ⟨1, _⟩ => show win0_3.index t (1 : Fin 2) * 1024 + 1 * (y 1).val = t.val * 1024 + (y 1).val; rw [i31]; omega)
  show tileOf (grid0.coords t) (iblk m c 0 t) (iblk m c 1 t) (wrows m c t) (win0_3.xinj (grid0.coords t) y)
    = Cert.ArcSpec.G _ _ _ (((cfg0.win 3).blk t).view.emb y)
  rw [e, eemb, tile_apply, Cert.ArcSpec.G_apply, lbl_read]
  simp only [emb_read, wt_read m c t ⟨(y 1).val, hq'⟩ hk]

/-- An index of the result is in point `t`'s block iff each coordinate is in the block's range inside the array. -/
theorem mem_blk (t : Fin cfg0.N) (i : S1024x100000.Idx) :
    i ∈ ((cfg0.win 3).blk t).view.set ↔ ∀ a : Fin 2, win0_3.index t a * S1024x1024.size a ≤ (i a).val
      ∧ (i a).val < win0_3.index t a * S1024x1024.size a + win0_3.xsize (grid0.coords t) a := by
  show i ∈ ((View.whole main_v1).slice (win0_3.rect t)).set ↔ _
  rw [View.set_slice_whole, Rect.mem_set_unit]
  exact Iff.rfl

/-- Every entry of the result is written back by some point: column `k` by point `k / 1024`. -/
theorem cover (i : S1024x100000.Idx) :
    ∃ t : Fin cfg0.N, (cfg0.win 3).flush t = true ∧ i ∈ ((cfg0.win 3).blk t).view.set := by
  have hi0 : (i 0).val < 1024 := (i 0).isLt
  have hi1 : (i 1).val < 100000 := (i 1).isLt
  have hN : (i 1).val / 1024 < cfg0.N := by show (i 1).val / 1024 < grid0.N; rw [N_0]; omega
  refine ⟨⟨(i 1).val / 1024, hN⟩, flush0_3 _, ?_⟩
  rw [mem_blk]
  obtain ⟨-, -, -, -, -, -, -, i30, i31, -, -, h30, h31⟩ := schedule ⟨(i 1).val / 1024, hN⟩
  have i31' : win0_3.index ⟨(i 1).val / 1024, hN⟩ (1 : Fin 2) = (i 1).val / 1024 := i31
  have h31' : win0_3.xsize (grid0.coords ⟨(i 1).val / 1024, hN⟩) (1 : Fin 2) = min 1024 (100000 - (i 1).val / 1024 * 1024) := h31
  intro a
  match a with
  | ⟨0, _⟩ =>
    show win0_3.index _ (0 : Fin 2) * 1024 ≤ (i 0).val ∧ (i 0).val < win0_3.index _ (0 : Fin 2) * 1024 + win0_3.xsize _ (0 : Fin 2)
    rw [i30, h30]; omega
  | ⟨1, _⟩ =>
    show win0_3.index _ (1 : Fin 2) * 1024 ≤ (i 1).val ∧ (i 1).val < win0_3.index _ (1 : Fin 2) * 1024 + win0_3.xsize _ (1 : Fin 2)
    rw [i31', h31']; omega

/-! ## The result array, and the run re-posted -/

/-- After the run the result array holds `G` of the three argument arrays. -/
theorem final (c : Dev nD) :
    (dats (F := Ideal) m 0 c).arrAt 3 cfg0.N
      = Cert.ArcSpec.G (m ((c : Thread nD τ).loc main_arg0)) (m ((c : Thread nD τ).loc main_arg1)) (m ((c : Thread nD τ).loc main_arg2)) := by
  have h := (dats (F := Ideal) m 0 c).arrAt_eq_of_cover 3 _ (fun t _ => flushed_eq m c t) cover
  rw [V_main_arg0, V_main_arg2] at h
  exact h

/-- Every weakly fair execution of the idealized kernel terminates with the result array at `G` of the arguments and
    the arguments unchanged. -/
theorem value_run :
    θ_run defs (onTc (τ := τ) (main (F := Ideal))) ⟨m, fun _ => 0, ρ⟩ (fun r => ∀ c : Dev nD,
      r.2.mem ((c.tc : Thread nD τ).loc main_v1)
        = Cert.ArcSpec.G (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).1 3).trans (final m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).1 2).trans (((dats m 0 c).arrAt_in 2 rfl _).trans ((A_eq m c 2).trans (V_main_arg2 m c)))⟩)
    (run_main m ρ tileLocal)

end Cert.KernelIdeal.Hand

end
-- ==== Proof.RefValue.lean ====
/-
  The reference program computes the specification `G`, entry by entry, on the extended reals.

  At entry `(b, k)` the reference reads: embedding row `b` and weight row `k`, each entry divided by its row's floored
  norm (the sum of squares along the row started from the zero word, which is `0`; its square root; the maximum with the
  floor word); the sum over the 512 entries of the products, the weight side read through a transpose; the clamp (maximum
  with the lower word, then minimum with the upper); the margin form (a select on `c > cos(π − m)` between the addition
  formula and the linear fallback); the label test "class number `k` as a 32-bit word equals row `b`'s label"; the
  select on that test between the margin form and the clamped cosine; times the scale word.

  Each lemma below states one of these stages at coordinates `ix2 b k` (or `ix1 b`), by rewriting with the generated
  read-at-an-index lemmas and identifying the composed index maps with `ix1` / `ix2` coordinate by coordinate. The
  float operations at the ideal values are the extended reals' own by definition, so every closing step is `rfl`.
-/
import proofs.«159102_j13297218748568_1_alg».proof.Proof.Gen.ReferenceIdeal.Read
import proofs.«159102_j13297218748568_1_alg».proof.Proof.Spec

noncomputable section

namespace Cert.ReferenceIdeal.RefValue

open Cert.ReferenceIdeal Cert.ReferenceIdeal.Read Idealize.ShloMosaic Idealize.ShloMosaic.ValueIdx Cert.ArcSpec

/-- The sum of squares along embedding row `b`: the host's float sum starts from the zero word, which is `0`. -/
theorem sumsq_emb (x0 : (⟨S1024x512, .f32⟩ : BufTy).Contents (Elt Ideal)) (b : Fin 1024) :
    val_main_v1 (F := Ideal) x0 (ix1 b) = ∑ d : Fin 512, x0 (ix2 b d) * x0 (ix2 b d) := by
  rw [val_main_v1_apply, val_main_cst_apply, Ideal.ofBits_def, Ideal.ofBits_zero_f32, zero_add]
  refine Finset.sum_congr rfl fun k _ => ?_
  rw [val_main_v0_apply, Ideal.mulf_def]
  have e : idx_main_v1 (ix1 b) k = ix2 b k := funext fun a => Fin.ext (by match a with | ⟨0, _⟩ => rfl | ⟨1, _⟩ => rfl)
  rw [e]

/-- Entry `(b, d)` of the normalised embeddings is the entry divided by row `b`'s floored norm. -/
theorem embNorm (x0 : (⟨S1024x512, .f32⟩ : BufTy).Contents (Elt Ideal)) (b : Fin 1024) (d : Fin 512) :
    val_main_v7 (F := Ideal) x0 (ix2 b d) = Ideal.div (x0 (ix2 b d)) (rowNorm fun d => x0 (ix2 b d)) := by
  rw [val_main_v7_apply, Ideal.hostDivf_def, val_main_v6_apply, val_main_v5_apply, Ideal.maximumf_def,
    val_main_v3_apply, Ideal.hostUnary_sqrt_def, val_main_v2_apply, val_main_v4_apply, val_main_cst_0_apply, Ideal.ofBits_def]
  have e : idx_main_v2 (idx_main_v6 (ix2 b d)) = ix1 b := funext fun a => Fin.ext (by match a with | ⟨0, _⟩ => rfl)
  rw [e, sumsq_emb]
  rfl

/-- The sum of squares along weight row `k`. -/
theorem sumsq_wt (x2 : (⟨S100000x512, .f32⟩ : BufTy).Contents (Elt Ideal)) (k : Fin 100000) :
    val_main_v9 (F := Ideal) x2 (ix1 k) = ∑ d : Fin 512, x2 (ix2 k d) * x2 (ix2 k d) := by
  rw [val_main_v9_apply, val_main_cst_1_apply, Ideal.ofBits_def, Ideal.ofBits_zero_f32, zero_add]
  refine Finset.sum_congr rfl fun j _ => ?_
  rw [val_main_v8_apply, Ideal.mulf_def]
  have e : idx_main_v9 (ix1 k) j = ix2 k j := funext fun a => Fin.ext (by match a with | ⟨0, _⟩ => rfl | ⟨1, _⟩ => rfl)
  rw [e]

/-- Entry `(k, d)` of the normalised weights is the entry divided by row `k`'s floored norm. -/
theorem wtNorm (x2 : (⟨S100000x512, .f32⟩ : BufTy).Contents (Elt Ideal)) (k : Fin 100000) (d : Fin 512) :
    val_main_v15 (F := Ideal) x2 (ix2 k d) = Ideal.div (x2 (ix2 k d)) (rowNorm fun d => x2 (ix2 k d)) := by
  rw [val_main_v15_apply, Ideal.hostDivf_def, val_main_v14_apply, val_main_v13_apply, Ideal.maximumf_def,
    val_main_v11_apply, Ideal.hostUnary_sqrt_def, val_main_v10_apply, val_main_v12_apply, val_main_cst_2_apply, Ideal.ofBits_def]
  have e : idx_main_v10 (idx_main_v14 (ix2 k d)) = ix1 k := funext fun a => Fin.ext (by match a with | ⟨0, _⟩ => rfl)
  rw [e, sumsq_wt]
  rfl

/-- The transposed normalised weights at `(d, k)` are the normalised weights at `(k, d)`. -/
theorem wtNormT (x2 : (⟨S100000x512, .f32⟩ : BufTy).Contents (Elt Ideal)) (k : Fin 100000) (d : Fin 512) :
    val_main_v16 (F := Ideal) x2 (ix2 d k) = Ideal.div (x2 (ix2 k d)) (rowNorm fun d => x2 (ix2 k d)) := by
  rw [val_main_v16_apply]
  have e : idx_main_v16 (ix2 d k) = ix2 k d := funext fun a => Fin.ext (by match a with | ⟨0, _⟩ => rfl | ⟨1, _⟩ => rfl)
  rw [e, wtNorm]

/-- The contraction at `(b, k)` is the cosine of embedding row `b` and weight row `k`. -/
theorem dot_eq_cosine (x0 : (⟨S1024x512, .f32⟩ : BufTy).Contents (Elt Ideal)) (x2 : (⟨S100000x512, .f32⟩ : BufTy).Contents (Elt Ideal))
    (b : Fin 1024) (k : Fin 100000) :
    val_main_v17 (F := Ideal) x0 x2 (ix2 b k) = cosine (fun d => x0 (ix2 b d)) (fun d => x2 (ix2 k d)) := by
  rw [val_main_v17_apply]
  unfold cosine
  refine Finset.sum_congr rfl fun j _ => ?_
  have el : lidx_main_v17 (ix2 b k) j = ix2 b j := funext fun a => Fin.ext (by match a with | ⟨0, _⟩ => rfl | ⟨1, _⟩ => rfl)
  have er : ridx_main_v17 (ix2 b k) j = ix2 j k := funext fun a => Fin.ext (by match a with | ⟨0, _⟩ => rfl | ⟨1, _⟩ => rfl)
  rw [el, er, embNorm, wtNormT]

/-- The clamped contraction at `(b, k)`: the maximum with the lower word first, then the minimum with the upper. -/
theorem clamped_eq (x0 : (⟨S1024x512, .f32⟩ : BufTy).Contents (Elt Ideal)) (x2 : (⟨S100000x512, .f32⟩ : BufTy).Contents (Elt Ideal))
    (b : Fin 1024) (k : Fin 100000) :
    val_main_v18 (F := Ideal) x0 x2 (ix2 b k) = clamp (cosine (fun d => x0 (ix2 b d)) (fun d => x2 (ix2 k d))) := by
  rw [val_main_v18_apply, Ideal.minimumf_def, val_main_call0_v2_apply, Ideal.maximumf_def, val_main_call0_v4_apply,
    val_main_call0_v3_apply, val_main_cst_4_apply, val_main_call0_v1_apply, val_main_call0_v0_apply, val_main_cst_3_apply,
    Ideal.ofBits_def, Ideal.ofBits_def, dot_eq_cosine]
  rfl

/-- The margin form at `(b, k)`: the select on `c > cos(π − m)` between the addition formula and the linear fallback,
    each read off the clamped cosine `c`. -/
theorem margin_eq (x0 : (⟨S1024x512, .f32⟩ : BufTy).Contents (Elt Ideal)) (x2 : (⟨S100000x512, .f32⟩ : BufTy).Contents (Elt Ideal))
    (b : Fin 1024) (k : Fin 100000) :
    val_main_v32 (F := Ideal) x0 x2 (ix2 b k)
      = withMargin (clamp (cosine (fun d => x0 (ix2 b d)) (fun d => x2 (ix2 k d)))) := by
  rw [val_main_v32_apply, val_main_v29_apply, val_main_v27_apply, val_main_v31_apply, val_main_v24_apply, val_main_v26_apply,
    val_main_v22_apply, val_main_v21_apply, val_main_v19_apply, val_main_v20_apply, val_main_v23_apply, val_main_v25_apply,
    val_main_v28_apply, val_main_v30_apply, val_main_cst_5_apply, val_main_cst_6_apply, val_main_cst_7_apply,
    val_main_cst_8_apply, val_main_cst_9_apply, clamped_eq]
  rfl

/-- The label test at `(b, k)`: the class number `k` as a 32-bit word against row `b`'s label. -/
theorem hit_eq (x1 : (⟨S1024, .i32⟩ : BufTy).Contents (Elt Ideal)) (b : Fin 1024) (k : Fin 100000) :
    val_main_v38 (F := Ideal) x1 (ix2 b k) = IntOp.cmpi .eq (BitVec.ofNat 32 k.val) (x1 (ix1 b)) := by
  rw [val_main_v38_apply, val_main_v36_apply, val_main_v34_apply, val_main_v33_apply, val_main_v37_apply, val_main_v35_apply]
  have e : idx_main_v35 (idx_main_v37 (ix2 b k)) = ix1 b := funext fun a => Fin.ext (by match a with | ⟨0, _⟩ => rfl)
  rw [e]

/-- The reference program's result is the specification, entry by entry. -/
theorem ref_eq_G (emb : (⟨S1024x512, .f32⟩ : BufTy).Contents (Elt Ideal)) (lbl : (⟨S1024, .i32⟩ : BufTy).Contents (Elt Ideal)) (wt : (⟨S100000x512, .f32⟩ : BufTy).Contents (Elt Ideal)) :
    Cert.ReferenceIdeal.Read.val_main_v41 (F := Ideal) emb lbl wt = Cert.ArcSpec.G emb lbl wt := by
  funext i
  obtain ⟨b, k, rfl⟩ : ∃ (b : Fin 1024) (k : Fin 100000), i = ix2 b k := ⟨i 0, i 1, eq_ix2 i⟩
  rw [G_apply, val_main_v41_apply, val_main_v39_apply, val_main_v40_apply, val_main_cst_10_apply, hit_eq, margin_eq, clamped_eq]
  rfl

end Cert.ReferenceIdeal.RefValue

end
-- ==== Proof.lean ====
/-
  An ArcFace classification head: 1024 embeddings of dimension 512 against 100000 class-weight rows. Both the embedding
  rows and the weight rows are divided by their Euclidean norms (floored at 1e-12), the cosines are their dot products,
  clamped to [−1 + 1e-7, 1 − 1e-7]; at each row's label column the clamped cosine `c` is replaced by the margin form
  `c·cos m − √(1 − c²)·sin m` (or `c − m·sin(π − m)` where `c ≤ cos(π − m)`), and everything is scaled by 64.

  The kernel computes the result in 98 tiles of 1024 classes: each grid point normalises the (resident) embeddings and
  one block of 1024 weight rows, multiplies them on the matrix unit after rounding both to bf16, and applies the clamp,
  the margin and the label test with the class index `1024·t + q`. The reference normalises the whole weight matrix
  and takes one [1024, 512] × [512, 100000] product in f32. On the extended reals the roundings are the identity and
  the two programs differ only in how the same entries are grouped: entry (b, k) of either is the specification's
  `G` (Proof/Spec.lean) — the kernel's by the tile's entries (Proof/PayValue.lean) read through the blocks
  (Proof/KernelIdealValue.lean), the reference's one operation at a time (Proof/RefValue.lean). No algebraic law
  beyond the commutative-monoid structure of sums is used, so the precondition is never opened.

  100000 is not a multiple of 1024: the last weight block and the last result block overhang their arrays by 352.
  The rows of the last weight buffer past the matrix's end hold words nothing names; tile column `q` depends on weight
  row `q` alone, and the columns past the result's end are not written back, so the result does not depend on them.
  For the printed (word-level) kernel only the frame is claimed, and its proof leaves the result window unnamed
  (Proof/KernelData.lean); the idealization rewrote nothing, so `preserves` has no conjunct.
-/
import proofs.«159102_j13297218748568_1_alg».proof.Defs
import proofs.«159102_j13297218748568_1_alg».proof.Proof.Gen.Kernel
import proofs.«159102_j13297218748568_1_alg».proof.Proof.Gen.KernelIdeal
import proofs.«159102_j13297218748568_1_alg».proof.Proof.Gen.ReferenceIdeal
import proofs.«159102_j13297218748568_1_alg».proof.Proof.Gen.ReferenceIdeal.Run
import proofs.«159102_j13297218748568_1_alg».proof.Proof.Gen.ReferenceIdeal.Read
import proofs.«159102_j13297218748568_1_alg».proof.Proof.Gen.Pre_finite_inputs
import proofs.«159102_j13297218748568_1_alg».proof.Proof.KernelData
import proofs.«159102_j13297218748568_1_alg».proof.Proof.KernelIdealValue
import proofs.«159102_j13297218748568_1_alg».proof.Proof.RefValue
import Idealize.ShloMosaic.Adequacy
import Idealize.ShloMosaic.Init

noncomputable section

namespace Cert.Proof

open Idealize.ShloMosaic Idealize.ShloMosaic.TcCoe Idealize.SL.Sem

/-- The printed kernel runs to the end, faults nowhere and leaves its three arguments as they were. -/
theorem frame_kernel : Cert.frame_Kernel := fun m ρ _ => Cert.Kernel.Hand.frame (F := Bits) m ρ

/-- So does the idealized kernel. -/
theorem frame_kernelIdeal : Cert.frame_KernelIdeal :=
  fun m ρ _ => Cert.KernelIdeal.Hand.frame (F := Ideal) m ρ Cert.KernelIdeal.Hand.tileLocal

/-- The reference is host operations only: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the arguments both idealized programs end with the result array at `G` of the
    arguments: the kernel's by its tiles, the reference's by its operations read at an index. -/
theorem algebraic : Cert.algebraic_KernelIdeal_ReferenceIdeal := by
  intro m ρ m' ρ' _ hagree
  refine ⟨fun c => Cert.ArcSpec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Hand.value_run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v41_eq, Cert.ReferenceIdeal.RefValue.ref_eq_G,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
